-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 101
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .bf16⟩
  | .hbm, ⟨57, _⟩ => ⟨S1700000x1, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x128, .bf16⟩
  | .hbm, ⟨67, _⟩ => ⟨S1700000x128, .f32⟩
  | .hbm, ⟨68, _⟩ => ⟨S1700000x128, .f32⟩
  | .hbm, ⟨69, _⟩ => ⟨S1700000x128, .f32⟩
  | .hbm, ⟨70, _⟩ => ⟨S_, .f32⟩
  | .hbm, ⟨71, _⟩ => ⟨S100000x128, .f32⟩
  | .hbm, ⟨72, _⟩ => ⟨S1700000x1, .i32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S100000x128, .bf16⟩
  | .hbm, ⟨81, _⟩ => ⟨S1700000x1, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x128, .bf16⟩
  | .hbm, ⟨91, _⟩ => ⟨S1700000x128, .f32⟩
  | .hbm, ⟨92, _⟩ => ⟨S1700000x128, .f32⟩
  | .hbm, ⟨93, _⟩ => ⟨S1700000x128, .f32⟩
  | .hbm, ⟨94, _⟩ => ⟨S_, .f32⟩
  | .hbm, ⟨95, _⟩ => ⟨S100000x128, .f32⟩
  | .hbm, ⟨96, _⟩ => ⟨S1700000x1, .i32⟩
  | .hbm, ⟨97, _⟩ => ⟨S100000x128, .f32⟩
  | .hbm, ⟨98, _⟩ => ⟨S1x128, .f32⟩
  | .hbm, ⟨99, _⟩ => ⟨S100000x128, .f32⟩
  | .hbm, ⟨100, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .bf16⟩
  | .local _ .vmem, ⟨9, _⟩ => ⟨S10000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call2_cst : Ref sig .tc := ⟨.hbm, 77, rfl⟩
abbrev main_call2_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .bf16 = 32 ∨ (Rect.block (s := S100000x128) S10000x128.size (cc1_transform_2 i) (hinb1_2 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S100000, .f32⟩
  | 16 => ⟨S1700000, .f32⟩
  | 17 => ⟨S100000x128, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S_, .f32⟩
  | 27 => ⟨S100000, .f32⟩
  | 28 => ⟨S100000, .f32⟩
  | 29 => ⟨S100000, .f32⟩
  | 30 => ⟨S_, .f32⟩
  | 31 => ⟨S100000, .f32⟩
  | 32 => ⟨S100000, .i1⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S1700000x1, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S_, .f32⟩
  | 88 => ⟨S_, .f32⟩
  | 89 => ⟨S100000, .f32⟩
  | 90 => ⟨S100000, .f32⟩
  | 91 => ⟨S100000, .f32⟩
  | 92 => ⟨S_, .f32⟩
  | 93 => ⟨S100000, .f32⟩
  | 94 => ⟨S100000, .i1⟩
  | 95 => ⟨S_, .f32⟩
  | 96 => ⟨S_, .f32⟩
  | 97 => ⟨S100000, .f32⟩
  | 98 => ⟨S100000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000, .f32⟩
  | 118 => ⟨S1700000, .f32⟩
  | 119 => ⟨S1700000x1, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x128, .f32⟩

abbrev hbmTy0_1 (i : Nat) : BufTy := match i % 128 with
  | 0 => ⟨S1700000x128, .f32⟩
  | 1 => ⟨S1700000x128, .f32⟩
  | 2 => ⟨S1700000x128, .f32⟩
  | 3 => ⟨S_, .f32⟩
  | 4 => ⟨S100000x128, .f32⟩
  | 5 => ⟨S1700000x1, .i32⟩
  | 6 => ⟨S100000x128, .f32⟩
  | 7 => ⟨S1x128, .f32⟩
  | 8 => ⟨S100000x128, .f32⟩
  | 9 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_call3_v0 : Ref sig .tc := ⟨.hbm, 88, rfl⟩
abbrev main_call3_v1 : Ref sig .tc := ⟨.hbm, 89, rfl⟩
abbrev main_v59 : Ref sig .tc := ⟨.hbm, 90, rfl⟩
abbrev main_v60 : Ref sig .tc := ⟨.hbm, 91, rfl⟩
abbrev main_cst_14 : Ref sig .tc := ⟨.hbm, 92, rfl⟩
abbrev main_v61 : Ref sig .tc := ⟨.hbm, 93, rfl⟩
abbrev main_v62 : Ref sig .tc := ⟨.hbm, 94, rfl⟩
abbrev main_cst_15 : Ref sig .tc := ⟨.hbm, 95, rfl⟩
abbrev main_call4_v0 : Ref sig .tc := ⟨.hbm, 96, rfl⟩
abbrev main_call4_v1 : Ref sig .tc := ⟨.hbm, 97, rfl⟩
abbrev main_v63 : Ref sig .tc := ⟨.hbm, 98, rfl⟩
abbrev main_c_16 : Ref sig .tc := ⟨.hbm, 99, rfl⟩
abbrev main_v64 : Ref sig .tc := ⟨.hbm, 100, rfl⟩
abbrev main_v65 : Ref sig .tc := ⟨.hbm, 101, rfl⟩
abbrev main_c_17 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_18 : Ref sig .tc := ⟨.hbm, 109, rfl⟩
abbrev main_v72 : Ref sig .tc := ⟨.hbm, 110, rfl⟩
abbrev main_v73 : Ref sig .tc := ⟨.hbm, 111, rfl⟩
abbrev main_c_19 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_20 : Ref sig .tc := ⟨.hbm, 120, rfl⟩
abbrev main_v81 : Ref sig .tc := ⟨.hbm, 121, rfl⟩
abbrev main_v82 : Ref sig .tc := ⟨.hbm, 122, rfl⟩
abbrev main_c_21 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_22 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Gcn.lean ====
/-
  The graph convolution both programs compute, as ONE function of the seven argument arrays.

  Edges come as a [2, E] array of node numbers (row 0 the sources, row 1 the destinations) with a weight each; every
  node gets a self-loop of weight one. With `deg` the weighted in-degree, `dinv = deg^(-1/2)` where `deg > 0` and
  zero elsewhere, and `norm e = dinv[src e] · w e · dinv[dst e]`, a layer maps node features `xw` (already multiplied
  by the layer's weight matrix) to `out[v] = Σ_{e : dst e = v} norm e · xw[src e] + b`. The network is two such
  layers with a ReLU between them. The definitions below spell each step with the host operation the programs use
  (slice, concatenate, scatter-add, gather, select …), so that a program's composed term is this function by
  unfolding; nothing here opens a scatter or a gather.
-/
import proofs.«164229_j53532472377745_2_alg».proof.Proof.Gen.ReferenceIdeal
import proofs.«164229_j53532472377745_2_alg».proof.Proof.Gen.ReferenceIdeal.Read

noncomputable section

namespace Cert.Gcn

open Cert.ReferenceIdeal Cert.ReferenceIdeal.Facts₀ Idealize.ShloMosaic

/-- The sources of the edges, then every node once (the self-loops). -/
def src (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The destinations of the edges, then every node once. -/
def dst (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The scalar one and the scalar zero. -/
def one : FVec Ideal S_ .f32 := constant (F := Ideal) S_ .f32 0x3F800000#32
def zero : FVec Ideal S_ .f32 := constant (F := Ideal) S_ .f32 0x00000000#32

/-- The edge weights, then weight one for every self-loop. -/
def wts (ew : FVec Ideal S1600000 .f32) : FVec Ideal S1700000 .f32 :=
  concatenate S1700000 0 [⟨S1600000, ew⟩, ⟨S100000, (broadcastInDim S100000 ![] bcast_S_S100000 one)⟩] concatenates_S1600000_S100000_S1700000_d0

/-- A node number read as an index: a negative one counts from the end. -/
def wrap (s : IVec S1700000 32) : IVec S1700000 32 :=
  select (cmpi .slt s (broadcastInDim S1700000 ![] bcast_S_S1700000 (constantI S_ 32 0#32))) (addi s (broadcastInDim S1700000 ![] bcast_S_S1700000 (constantI S_ 32 100000#32))) s

/-- The weighted in-degree of every node. -/
def deg (ei : IVec S2x1600000 32) (ew : FVec Ideal S1600000 .f32) : FVec Ideal S100000 .f32 :=
  Host.scatterAdd scatter_S100000_S1700000x1_S1700000_n_0_0_1 (broadcastInDim S100000 ![] bcast_S_S100000 zero) (broadcastInDim S1700000x1 ![0] bcast_S1700000_S1700000x1_0 (dst ei)) (wts ew)

/-- Where a per-node value is positive. -/
def pos (d : FVec Ideal S100000 .f32) : IVec S100000 1 :=
  cmpf .ogt d (broadcastInDim S100000 ![] bcast_S_S100000 zero)

/-- `jnp.where` against a scalar: `d` where `p`, the scalar `k` elsewhere. -/
def pick (p : IVec S100000 1) (d : FVec Ideal S100000 .f32) (k : FVec Ideal S_ .f32) : FVec Ideal S100000 .f32 :=
  select p d (broadcastInDim S100000 ![] bcast_S_S100000 (id k))

/-- The reciprocal square root, entry by entry. -/
def rsq (d : FVec Ideal S100000 .f32) : FVec Ideal S100000 .f32 := Host.rsqrt d

/-- `d^(-1/2)` where `d > 0`, zero elsewhere. -/
def dinv (d : FVec Ideal S100000 .f32) : FVec Ideal S100000 .f32 :=
  pick (pos d) (rsq (pick (pos d) d one)) zero

/-- The normalisation of every edge from the per-node factors: `dinv[src] · w · dinv[dst]`. -/
def normOf (dv : FVec Ideal S100000 .f32) (s t : IVec S1700000 32) (w : FVec Ideal S1700000 .f32) : FVec Ideal S1700000 .f32 :=
  mulf (mulf (Host.gather gather_S100000_S1700000x1_S1700000_n_0_n_n_0_1_1 dv (broadcastInDim S1700000x1 ![0] bcast_S1700000_S1700000x1_0 (wrap s))) w) (Host.gather gather_S100000_S1700000x1_S1700000_n_0_n_n_0_1_1 dv (broadcastInDim S1700000x1 ![0] bcast_S1700000_S1700000x1_0 (wrap t)))

/-- The symmetric normalisation of every edge. -/
def norm (ei : IVec S2x1600000 32) (ew : FVec Ideal S1600000 .f32) : FVec Ideal S1700000 .f32 :=
  normOf (dinv (deg ei ew)) (src ei) (dst ei) (wts ew)

/-- One layer after its projection, from the edges' normalisation, sources and destinations: the messages
    `nrm e · xw[s e]` summed into their destinations, plus the bias on every row. -/
def layerOf (nrm : FVec Ideal S1700000 .f32) (s t : IVec S1700000 32) (xw : FVec Ideal S100000x128 .f32) (b : FVec Ideal S128 .f32) :
    FVec Ideal S100000x128 .f32 :=
  addf (Host.scatterAdd scatter_S100000x128_S1700000x1_S1700000x128_1_0_0_1 (broadcastInDim S100000x128 ![] bcast_S_S100000x128 zero) (broadcastInDim S1700000x1 ![0] bcast_S1700000_S1700000x1_0 t) (mulf (broadcastInDim S1700000x128 ![0, 1] bcast_S1700000x1_S1700000x128_0_1 (broadcastInDim S1700000x1 ![0] bcast_S1700000_S1700000x1_0 nrm)) (Host.gather gather_S100000x128_S1700000x1_S1700000x128_1_0_n_n_0_1_1128 xw (broadcastInDim S1700000x1 ![0] bcast_S1700000_S1700000x1_0 (wrap s))))) (broadcastInDim S100000x128 ![0, 1] bcast_S1x128_S100000x128_0_1 (broadcastInDim S1x128 ![1] bcast_S128_S1x128_1 b))

/-- One layer after its projection. -/
def layer (ei : IVec S2x1600000 32) (ew : FVec Ideal S1600000 .f32) (xw : FVec Ideal S100000x128 .f32) (b : FVec Ideal S128 .f32) :
    FVec Ideal S100000x128 .f32 :=
  layerOf (norm ei ew) (src ei) (dst ei) xw b

/-- The rectifier: the maximum with zero, entry by entry. -/
def relu (x : FVec Ideal S100000x128 .f32) : FVec Ideal S100000x128 .f32 :=
  maximumf x (broadcastInDim S100000x128 ![] bcast_S_S100000x128 zero)

/-- The feature projection: node features times a weight matrix. -/
def proj (x : FVec Ideal S100000x128 .f32) (w : FVec Ideal S128x128 .f32) : FVec Ideal S100000x128 .f32 :=
  Host.dotGeneral dot_S100000x128_S128x128_S100000x128_1_0_0_1_n_n none x w

/-- Entry `i` of the projection is row `i 0` of the features against column `i 1` of the weight. -/
theorem proj_apply (x : FVec Ideal S100000x128 .f32) (w : FVec Ideal S128x128 .f32) (i : S100000x128.Idx) :
    proj x w i = ∑ k : Fin 128, x (Read.lidx_main_v9 i k) * w (Read.ridx_main_v9 i k) :=
  Read.val_main_v9_apply x w i

/-- The two-layer network. -/
def net (x : FVec Ideal S100000x128 .f32) (ei : IVec S2x1600000 32) (ew : FVec Ideal S1600000 .f32)
    (w1 : FVec Ideal S128x128 .f32) (b1 : FVec Ideal S128 .f32) (w2 : FVec Ideal S128x128 .f32) (b2 : FVec Ideal S128 .f32) :
    FVec Ideal S100000x128 .f32 :=
  layer ei ew (proj (relu (layer ei ew (proj x w1) b1)) w2) b2

end Cert.Gcn

end
-- ==== Proof.KernelRun.lean ====
/-
  The idealized kernel's run, read at its result buffer.

  @main of the kernel is ten segments: five stretches of host operations, the first feature projection as a
  pipelined region, two stretches, the second projection, and the last stretch. The generated frame walks these
  segments and names the buffer contents at each boundary (a fold from the launch memory); its last boundary holds
  every unscoped buffer at the last fold. Here the same walk is posted at ANY property of those final contents, so
  that the result buffer — not only the argument arrays — can be read off the last fold.
-/
import proofs.«164229_j53532472377745_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, in a state whose unscoped buffers hold the
    last fold's contents: whatever follows from that (`hQ`) holds of the final state. -/
theorem run_last {Q : PUnit × MemSt nD τ sig (Elt F) → Prop}
    (hQ : ∀ s : MemSt nD τ sig (Elt F),
      (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

/-- The run with the result buffer and the seven argument arrays read off the last fold. -/
theorem run_result : θ_run defs (onTc (τ := τ) (main (F := F))) ⟨m, fun _ => 0, ρ⟩ (fun r => ∀ c : Dev nD,
      r.2.mem ((c.tc : Thread nD τ).loc main_v71) = W10 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_last m ρ (fun s h c =>
      ⟨h c _ (mem_uc main_v71 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Run

end
-- ==== Proof.BlockDot.lean ====
/-
  The feature projection as a pipelined region: what it leaves in its result array.

  The region walks ten row blocks of 10000 rows; at block `t` the body loads rows 10000·t … 10000·t + 9999 of the
  features and the whole 128 × 128 weight, multiplies them into a zero accumulator and stores the product into rows
  10000·t … of the result. Over the extended reals a change of float format is the identity and the matrix unit's
  product into zero is the plain sum over the contracted axis, so entry (r, c) of block `t` is
  Σ_k x[10000·t + r, k] · w[k, c]: the blocks are the restrictions of ONE whole-array function, the host's
  `dot_general` of the two arrays, and since the ten blocks tile the 100000 rows the result array ends holding it.
-/
import proofs.«164229_j53532472377745_2_alg».proof.Proof.Gen.KernelIdeal.Frame
import proofs.«164229_j53532472377745_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Proj

open Cert.KernelIdeal Cert.KernelIdeal.Gen

theorem hz : (![0, 0] : Fin 2 → Nat) = fun _ => 0 := funext fun a => by fin_cases a <;> rfl

/-! ## One block's product, entry by entry -/

/-- Row `j 0`, column `k` of a block of features. -/
abbrev lk (j : S10000x128.Idx) (k : Fin 128) : S10000x128.Idx := fun a => match a with
  | ⟨0, _⟩ => ⟨(j 0).val, (j 0).isLt⟩
  | ⟨1, _⟩ => ⟨k.val, k.isLt⟩
/-- Row `k`, column `j 1` of the weight. -/
abbrev rk (j : S10000x128.Idx) (k : Fin 128) : S128x128.Idx := fun a => match a with
  | ⟨0, _⟩ => ⟨k.val, k.isLt⟩
  | ⟨1, _⟩ => ⟨(j 1).val, (j 1).isLt⟩

theorem lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The matrix unit's product of a block with the weight into the zero accumulator, at entry `j`: the sum over the
    contracted axis of the block's row times the weight's column. -/
theorem blockDot_apply (l : FVec Ideal S10000x128 .bf16) (r : FVec Ideal S128x128 .bf16) (j : S10000x128.Idx) :
    matmul (F := Ideal) dot_S10000x128_S128x128_S10000x128_1_0_0_1_n_n none l r (constant S10000x128 .f32 0x00000000#32) j
      = ∑ k : Fin 128, l (lk j k) * r (rk j k) := by
  show FloatOps.matmul _ none l r (constant S10000x128 .f32 0x00000000#32) j = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = lk j k := funext fun a => Fin.ext (by
    match a with
    | ⟨0, _⟩ => exact lhs0 _ _
    | ⟨1, _⟩ => exact (lhs1 _ _).trans hk)
  have er : dot_S10000x128_S128x128_S10000x128_1_0_0_1_n_n.rhsIdx j ((ValueIdx.contrEquiv1 dot_S10000x128_S128x128_S10000x128_1_0_0_1_n_n 128 rfl rfl).symm k) = rk j k := funext fun a => Fin.ext (by
    match a with
    | ⟨0, _⟩ => exact (rhs0 _ _).trans hk
    | ⟨1, _⟩ => exact rhs1 _ _)
  rw [el, er]

/-- The first projection's stored value at entry `j`, from the loaded block and weight. -/
theorem pay0_apply (x0 : Vec Ideal S10000x128 .f32) (x1 : Vec Ideal S128x128 .f32) (j : S10000x128.Idx) :
    k0_pay1 (F := Ideal) x0 x1 j = ∑ k : Fin 128, x0 (lk j k) * x1 (rk j k) := by
  unfold k0_pay1
  exact blockDot_apply _ _ j

/-- The second projection's stored value: the same product (its block is first cast to its own shape). -/
theorem pay1_apply (x0 : Vec Ideal S10000x128 .f32) (x1 : Vec Ideal S128x128 .f32) (j : S10000x128.Idx) :
    k1_pay1 (F := Ideal) x0 x1 j = ∑ k : Fin 128, x0 (lk j k) * x1 (rk j k) := by
  unfold k1_pay1
  simp only [shapeCast_self]
  exact blockDot_apply _ _ j

end Cert.KernelIdeal.Proj

end
-- ==== Proof.ProjRegion.lean ====
/-
  The two projection regions, from blocks to arrays.

  A region's result array is written back block by block; block `t` is what the body stored at point `t`, which
  (entry by entry, by the block product) is the projection of the whole arrays read through block `t`'s rectangle:
  the features' block `t` is rows 10000·t … of the features, the weight's block is the weight. The ten blocks tile
  the rows, so the array ends holding the projection. Both regions are stated at ANY contents `V` the region is
  entered with.
-/
import proofs.«164229_j53532472377745_2_alg».proof.Proof.BlockDot
import proofs.«164229_j53532472377745_2_alg».proof.Proof.Gcn

set_option maxRecDepth 16384

noncomputable section

open Idealize.ShloMosaic Idealize.ShloMosaic.TcCoe Idealize.SL.Sem
open Idealize.ShloMosaic.Pipeline (Dat)

namespace Cert.KernelIdeal.Proj

open Cert.KernelIdeal Cert.KernelIdeal.Gen

variable (V : (c : Dev nD) → (b : Ref sig .tc) → Buf (Elt Ideal) ((c : Thread nD τ).loc b))

/-! ## Region 0: the blocks and the array -/

/-- The printed index maps over the grid: block `t` of the features and of the result is row block `t`; the weight's
    one block is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the projection of the two arrays as the region finds them. -/
theorem flushed0_eq (c : Dev nD) (t : Fin cfg0.N) :
    (dat0 V c).flushed 2 t = ((cfg0.win 2).blk t).view.read (Elt Ideal) (Cert.Gcn.proj (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts0 t
  funext y
  show k0_pay1 (iblk0 V c 0 t) (iblk0 V c 1 t) y = Cert.Gcn.proj (V c main_arg0) (V c main_arg3) (((cfg0.win 2).blk t).view.emb y)
  refine (pay0_apply _ _ y).trans ((Cert.Gcn.proj_apply _ _ _).trans ?_).symm
  refine Finset.sum_congr rfl fun k _ => ?_
  have h0 : ((cfg0.win 0).blk t).view.emb (lk y k) = Cert.ReferenceIdeal.Read.lidx_main_v9 (((cfg0.win 2).blk t).view.emb y) k := by
    funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 128 + 1 * k.val = k.val; omega
  have h1 : ((cfg0.win 1).blk t).view.emb (rk y k) = Cert.ReferenceIdeal.Read.ridx_main_v9 (((cfg0.win 2).blk t).view.emb y) k := by
    funext a; apply Fin.ext
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega
  rw [← h0, ← h1]
  rfl

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v35).slice (win0_2.rect t)).set ↔ _
  rw [View.set_slice_whole, Rect.mem_set_unit]
  exact Iff.rfl

/-- Row `r` of the result lies in block `r / 10000`: the ten blocks tile the array. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  obtain ⟨t, ht⟩ : ∃ t : Fin cfg0.N, t.val = (i 0).val / 10000 := ⟨⟨(i 0).val / 10000, by show _ < grid0.N; rw [hN]; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The result array after the region: the projection of the features and the weight as the region finds them. -/
theorem final0 (c : Dev nD) : (dat0 V c).arrAt 2 cfg0.N = Cert.Gcn.proj (V c main_arg0) (V c main_arg3) :=
  (dat0 V c).arrAt_eq_of_cover 2 (Cert.Gcn.proj (V c main_arg0) (V c main_arg3)) (fun t _ => flushed0_eq V c t) cover0

/-! ## Region 1: the blocks and the array -/

/-- The printed index maps over the grid: block `t` of the features and of the result is row block `t`; the weight's
    one block is the whole matrix. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the projection of the two arrays as the region finds them. -/
theorem flushed1_eq (c : Dev nD) (t : Fin cfg1.N) :
    (dat1 V c).flushed 2 t = ((cfg1.win 2).blk t).view.read (Elt Ideal) (Cert.Gcn.proj (V c main_v53) (V c main_arg5)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  obtain ⟨e0, e1, e2, e3, e4, e5⟩ := idx_facts1 t
  funext y
  show k1_pay1 (iblk1 V c 0 t) (iblk1 V c 1 t) y = Cert.Gcn.proj (V c main_v53) (V c main_arg5) (((cfg1.win 2).blk t).view.emb y)
  refine (pay1_apply _ _ y).trans ((Cert.Gcn.proj_apply _ _ _).trans ?_).symm
  refine Finset.sum_congr rfl fun k _ => ?_
  have h0 : ((cfg1.win 0).blk t).view.emb (lk y k) = Cert.ReferenceIdeal.Read.lidx_main_v9 (((cfg1.win 2).blk t).view.emb y) k := by
    funext a; apply Fin.ext
    match a with
    | ⟨0, _⟩ => show win1_0.index t (0 : Fin 2) * 10000 + 1 * (y 0).val = win1_2.index t (0 : Fin 2) * 10000 + 1 * (y 0).val; omega
    | ⟨1, _⟩ => show win1_0.index t (1 : Fin 2) * 128 + 1 * k.val = k.val; omega
  have h1 : ((cfg1.win 1).blk t).view.emb (rk y k) = Cert.ReferenceIdeal.Read.ridx_main_v9 (((cfg1.win 2).blk t).view.emb y) k := by
    funext a; apply Fin.ext
    match a with
    | ⟨0, _⟩ => show win1_1.index t (0 : Fin 2) * 128 + 1 * k.val = k.val; omega
    | ⟨1, _⟩ => show win1_1.index t (1 : Fin 2) * 128 + 1 * (y 1).val = win1_2.index t (1 : Fin 2) * 128 + 1 * (y 1).val; omega
  rw [← h0, ← h1]
  rfl

/-- An index of the result array is in point `t`'s block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v54).slice (win1_2.rect t)).set ↔ _
  rw [View.set_slice_whole, Rect.mem_set_unit]
  exact Iff.rfl

/-- Row `r` of the result lies in block `r / 10000`: the ten blocks tile the array. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 10 := N_1
  obtain ⟨t, ht⟩ : ∃ t : Fin cfg1.N, t.val = (i 0).val / 10000 := ⟨⟨(i 0).val / 10000, by show _ < grid1.N; rw [hN]; omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The result array after the region: the projection of the features and the weight as the region finds them. -/
theorem final1 (c : Dev nD) : (dat1 V c).arrAt 2 cfg1.N = Cert.Gcn.proj (V c main_v53) (V c main_arg5) :=
  (dat1 V c).arrAt_eq_of_cover 2 (Cert.Gcn.proj (V c main_v53) (V c main_arg5)) (fun t _ => flushed1_eq V c t) cover1

end Cert.KernelIdeal.Proj

end
-- ==== Proof.KernelNet.lean ====
/-
  The idealized kernel's result is the network.

  Between the launch and the return the kernel's buffers pass through ten boundaries. Read at the buffers that
  matter: before the first region the host operations have built the edge lists (sources, destinations, weights with
  the self-loops appended) and the edges' normalisation; the first region leaves the projection of the features in
  its result array and touches nothing else; the next stretch gathers the projected rows (stored in a narrower float
  format and widened again: the identity on extended reals), weights and sums them into their destinations, adds
  the bias and rectifies; the second region projects that; the last stretch is the second layer's aggregation.
  Each stretch is read once at ANY contents it starts from, as one of the network's own steps applied to what the
  stretch finds; chained along the boundaries the result buffer ends holding `Gcn.net` of the seven argument arrays.
-/
import proofs.«164229_j53532472377745_2_alg».proof.Proof.Gen.KernelIdeal.Frame
import proofs.«164229_j53532472377745_2_alg».proof.Proof.ProjRegion
import proofs.«164229_j53532472377745_2_alg».proof.Proof.Gcn
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

/-- Read a buffer after a line of host operations: the library's one-pass reading first, then its one-at-a-time
    reading for what the pass leaves (an operation read at its own result buffer is its function of its operands; read
    at any other buffer it is what was there). -/
macro "host_reads" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## Each stretch of host operations, from any contents `V` -/

section Stretches

variable (V : Valuation τ sig (Elt Ideal))

/-- The edges' sources. -/
theorem o0_src : StableHlo.after hostOps0 V (Proc.devRef .tc main_v5) = Cert.Gcn.src (V (Proc.devRef .tc main_arg1)) := by
  dsimp only [hostOps0]
  host_reads <;> rfl

/-- The edges' destinations. -/
theorem o0_dst : StableHlo.after hostOps0 V (Proc.devRef .tc main_v6) = Cert.Gcn.dst (V (Proc.devRef .tc main_arg1)) := by
  dsimp only [hostOps0]
  host_reads <;> rfl

/-- The edges' weights. -/
theorem o0_wts : StableHlo.after hostOps0 V (Proc.devRef .tc main_v8) = Cert.Gcn.wts (V (Proc.devRef .tc main_arg2)) := by
  dsimp only [hostOps0]
  host_reads <;> rfl

/-- The weighted in-degrees. -/
theorem o0_deg : StableHlo.after hostOps0 V (Proc.devRef .tc main_v11) = Cert.Gcn.deg (V (Proc.devRef .tc main_arg1)) (V (Proc.devRef .tc main_arg2)) := by
  dsimp only [hostOps0]
  host_reads <;> rfl

/-- Where the degree is positive. -/
theorem o0_pos : StableHlo.after hostOps0 V (Proc.devRef .tc main_v13) = Cert.Gcn.pos (Cert.Gcn.deg (V (Proc.devRef .tc main_arg1)) (V (Proc.devRef .tc main_arg2))) := by
  dsimp only [hostOps0]
  host_reads <;> rfl

theorem o0_one : StableHlo.after hostOps0 V (Proc.devRef .tc main_cst_2) = Cert.Gcn.one := by
  dsimp only [hostOps0]
  host_reads <;> rfl

/-- The degree where positive, one elsewhere. -/
theorem o1_safe : StableHlo.after hostOps0_1 V (Proc.devRef .tc main_v14) = Cert.Gcn.pick (V (Proc.devRef .tc main_v13)) (V (Proc.devRef .tc main_v11)) (V (Proc.devRef .tc main_cst_2)) := by
  dsimp only [hostOps0_1]
  host_reads <;> rfl

theorem o1_deg : StableHlo.after hostOps0_1 V (Proc.devRef .tc main_v11) = V (Proc.devRef .tc main_v11) := by
  dsimp only [hostOps0_1]
  host_reads <;> rfl

/-- Its reciprocal square root. -/
theorem o2_rsq : StableHlo.after hostOps0_2 V (Proc.devRef .tc main_v15) = Cert.Gcn.rsq (V (Proc.devRef .tc main_v14)) := by
  dsimp only [hostOps0_2]
  host_reads <;> rfl

theorem o2_pos : StableHlo.after hostOps0_2 V (Proc.devRef .tc main_v17) = Cert.Gcn.pos (V (Proc.devRef .tc main_v11)) := by
  dsimp only [hostOps0_2]
  host_reads <;> rfl

theorem o2_zero : StableHlo.after hostOps0_2 V (Proc.devRef .tc main_cst_4) = Cert.Gcn.zero := by
  dsimp only [hostOps0_2]
  host_reads <;> rfl

/-- The per-node factor: that root where the degree is positive, zero elsewhere. -/
theorem o3_dinv : StableHlo.after hostOps0_3 V (Proc.devRef .tc main_v18) = Cert.Gcn.pick (V (Proc.devRef .tc main_v17)) (V (Proc.devRef .tc main_v15)) (V (Proc.devRef .tc main_cst_4)) := by
  dsimp only [hostOps0_3]
  host_reads <;> rfl

/-- The edges' normalisation from the per-node factors. -/
theorem o4_norm : StableHlo.after hostOps0_4 V (Proc.devRef .tc main_v34) = Cert.Gcn.normOf (V (Proc.devRef .tc main_v18)) (V (Proc.devRef .tc main_v5)) (V (Proc.devRef .tc main_v6)) (V (Proc.devRef .tc main_v8)) := by
  dsimp only [hostOps0_4]
  host_reads <;> rfl

/-- A layer's aggregation and bias, from the projected rows (stored narrow, widened after the gather: the identity here). -/
theorem o5_layer : StableHlo.after hostOps1 V (Proc.devRef .tc main_v52) = Cert.Gcn.layerOf (V (Proc.devRef .tc main_v34)) (V (Proc.devRef .tc main_v5)) (V (Proc.devRef .tc main_v6)) (V (Proc.devRef .tc main_v35)) (V (Proc.devRef .tc main_arg4)) := by
  dsimp only [hostOps1]
  host_reads <;> rfl

/-- The rectifier. -/
theorem o6_relu : StableHlo.after hostOps1_1 V (Proc.devRef .tc main_v53) = Cert.Gcn.relu (V (Proc.devRef .tc main_v52)) := by
  dsimp only [hostOps1_1]
  host_reads <;> rfl

/-- The second layer's aggregation and bias. -/
theorem o7_layer : StableHlo.after hostOps2 V (Proc.devRef .tc main_v71) = Cert.Gcn.layerOf (V (Proc.devRef .tc main_v34)) (V (Proc.devRef .tc main_v5)) (V (Proc.devRef .tc main_v6)) (V (Proc.devRef .tc main_v54)) (V (Proc.devRef .tc main_arg6)) := by
  dsimp only [hostOps2]
  host_reads <;> rfl

end Stretches

variable (m : (ℓ : Loc nD τ sig) → Buf (Elt Ideal) ℓ) (ρ : Dev nD → PrngReg) (c : Dev nD)

/-! ## Before the first region -/

set_option maxHeartbeats 4000000 in
theorem src_at4 : W4 m ρ c (Proc.devRef .tc main_v5) = Cert.Gcn.src (m ((c.tc : Thread nD τ).loc main_arg1)) := by
  dsimp only [W4, W3, W2, W1, W0, hostOps0, hostOps0_1, hostOps0_2, hostOps0_3]
  host_reads <;> rfl

set_option maxHeartbeats 4000000 in
theorem dst_at4 : W4 m ρ c (Proc.devRef .tc main_v6) = Cert.Gcn.dst (m ((c.tc : Thread nD τ).loc main_arg1)) := by
  dsimp only [W4, W3, W2, W1, W0, hostOps0, hostOps0_1, hostOps0_2, hostOps0_3]
  host_reads <;> rfl

set_option maxHeartbeats 4000000 in
theorem wts_at4 : W4 m ρ c (Proc.devRef .tc main_v8) = Cert.Gcn.wts (m ((c.tc : Thread nD τ).loc main_arg2)) := by
  dsimp only [W4, W3, W2, W1, W0, hostOps0, hostOps0_1, hostOps0_2, hostOps0_3]
  host_reads <;> rfl

set_option maxHeartbeats 4000000 in
theorem src_at5 : W5 m ρ c (Proc.devRef .tc main_v5) = Cert.Gcn.src (m ((c.tc : Thread nD τ).loc main_arg1)) := by
  dsimp only [W5, W4, W3, W2, W1, W0, hostOps0, hostOps0_1, hostOps0_2, hostOps0_3, hostOps0_4]
  host_reads <;> rfl

set_option maxHeartbeats 4000000 in
theorem dst_at5 : W5 m ρ c (Proc.devRef .tc main_v6) = Cert.Gcn.dst (m ((c.tc : Thread nD τ).loc main_arg1)) := by
  dsimp only [W5, W4, W3, W2, W1, W0, hostOps0, hostOps0_1, hostOps0_2, hostOps0_3, hostOps0_4]
  host_reads <;> rfl

set_option maxHeartbeats 4000000 in
theorem arg0_at5 : W5 m ρ c (Proc.devRef .tc main_arg0) = (m ((c.tc : Thread nD τ).loc main_arg0)) := by
  dsimp only [W5, W4, W3, W2, W1, W0, hostOps0, hostOps0_1, hostOps0_2, hostOps0_3, hostOps0_4]
  host_reads <;> rfl

set_option maxHeartbeats 4000000 in
theorem arg3_at5 : W5 m ρ c (Proc.devRef .tc main_arg3) = (m ((c.tc : Thread nD τ).loc main_arg3)) := by
  dsimp only [W5, W4, W3, W2, W1, W0, hostOps0, hostOps0_1, hostOps0_2, hostOps0_3, hostOps0_4]
  host_reads <;> rfl

set_option maxHeartbeats 4000000 in
theorem arg4_at5 : W5 m ρ c (Proc.devRef .tc main_arg4) = (m ((c.tc : Thread nD τ).loc main_arg4)) := by
  dsimp only [W5, W4, W3, W2, W1, W0, hostOps0, hostOps0_1, hostOps0_2, hostOps0_3, hostOps0_4]
  host_reads <;> rfl

set_option maxHeartbeats 4000000 in
theorem arg5_at5 : W5 m ρ c (Proc.devRef .tc main_arg5) = (m ((c.tc : Thread nD τ).loc main_arg5)) := by
  dsimp only [W5, W4, W3, W2, W1, W0, hostOps0, hostOps0_1, hostOps0_2, hostOps0_3, hostOps0_4]
  host_reads <;> rfl

set_option maxHeartbeats 4000000 in
theorem arg6_at5 : W5 m ρ c (Proc.devRef .tc main_arg6) = (m ((c.tc : Thread nD τ).loc main_arg6)) := by
  dsimp only [W5, W4, W3, W2, W1, W0, hostOps0, hostOps0_1, hostOps0_2, hostOps0_3, hostOps0_4]
  host_reads <;> rfl

/-- The edges' normalisation, computed once and shared by both layers. -/
theorem norm_at5 : W5 m ρ c (Proc.devRef .tc main_v34) = Cert.Gcn.norm (m ((c.tc : Thread nD τ).loc main_arg1)) (m ((c.tc : Thread nD τ).loc main_arg2)) := by
  refine (o4_norm (W4 m ρ c)).trans ?_
  have e18 : W4 m ρ c (Proc.devRef .tc main_v18) = Cert.Gcn.pick (W3 m ρ c (Proc.devRef .tc main_v17)) (W3 m ρ c (Proc.devRef .tc main_v15)) (W3 m ρ c (Proc.devRef .tc main_cst_4)) := o3_dinv (W3 m ρ c)
  have e17 : W3 m ρ c (Proc.devRef .tc main_v17) = Cert.Gcn.pos (W2 m ρ c (Proc.devRef .tc main_v11)) := o2_pos (W2 m ρ c)
  have e15 : W3 m ρ c (Proc.devRef .tc main_v15) = Cert.Gcn.rsq (W2 m ρ c (Proc.devRef .tc main_v14)) := o2_rsq (W2 m ρ c)
  have ec4 : W3 m ρ c (Proc.devRef .tc main_cst_4) = Cert.Gcn.zero := o2_zero (W2 m ρ c)
  have e14 : W2 m ρ c (Proc.devRef .tc main_v14) = Cert.Gcn.pick (W1 m ρ c (Proc.devRef .tc main_v13)) (W1 m ρ c (Proc.devRef .tc main_v11)) (W1 m ρ c (Proc.devRef .tc main_cst_2)) := o1_safe (W1 m ρ c)
  have e11' : W2 m ρ c (Proc.devRef .tc main_v11) = W1 m ρ c (Proc.devRef .tc main_v11) := o1_deg (W1 m ρ c)
  have e13 : W1 m ρ c (Proc.devRef .tc main_v13) = Cert.Gcn.pos (Cert.Gcn.deg (m ((c.tc : Thread nD τ).loc main_arg1)) (m ((c.tc : Thread nD τ).loc main_arg2))) := o0_pos (W0 m ρ c)
  have e11 : W1 m ρ c (Proc.devRef .tc main_v11) = Cert.Gcn.deg (m ((c.tc : Thread nD τ).loc main_arg1)) (m ((c.tc : Thread nD τ).loc main_arg2)) := o0_deg (W0 m ρ c)
  have ec2 : W1 m ρ c (Proc.devRef .tc main_cst_2) = Cert.Gcn.one := o0_one (W0 m ρ c)
  rw [e18, e17, e15, ec4, e14, e11', e13, e11, ec2, src_at4, dst_at4, wts_at4]
  rfl

/-! ## The first region -/

/-- The first projection: the features times the first weight. -/
theorem xw1_eq : W6 m ρ c (Proc.devRef .tc main_v35) = Cert.Gcn.proj (m ((c.tc : Thread nD τ).loc main_arg0)) (m ((c.tc : Thread nD τ).loc main_arg3)) := by
  refine (W6_arr m ρ c 2).trans ((Proj.final0 (V5 m ρ) c).trans ?_)
  show Cert.Gcn.proj (W5 m ρ c (Proc.devRef .tc main_arg0)) (W5 m ρ c (Proc.devRef .tc main_arg3)) = _
  rw [arg0_at5, arg3_at5]

/-! ## Between the regions -/

/-- The first layer, rectified. -/
theorem h1_eq : W8 m ρ c (Proc.devRef .tc main_v53)
    = Cert.Gcn.relu (Cert.Gcn.layer (m ((c.tc : Thread nD τ).loc main_arg1)) (m ((c.tc : Thread nD τ).loc main_arg2)) (Cert.Gcn.proj (m ((c.tc : Thread nD τ).loc main_arg0)) (m ((c.tc : Thread nD τ).loc main_arg3))) (m ((c.tc : Thread nD τ).loc main_arg4))) := by
  refine (o6_relu (W7 m ρ c)).trans ?_
  have e52 : W7 m ρ c (Proc.devRef .tc main_v52) = Cert.Gcn.layerOf (W6 m ρ c (Proc.devRef .tc main_v34)) (W6 m ρ c (Proc.devRef .tc main_v5)) (W6 m ρ c (Proc.devRef .tc main_v6)) (W6 m ρ c (Proc.devRef .tc main_v35)) (W6 m ρ c (Proc.devRef .tc main_arg4)) := o5_layer (W6 m ρ c)
  rw [e52, W6_of_ne m ρ c main_v34 (by decide), W6_of_ne m ρ c main_v5 (by decide), W6_of_ne m ρ c main_v6 (by decide),
    W6_of_ne m ρ c main_arg4 (by decide), xw1_eq, norm_at5, src_at5, dst_at5, arg4_at5]
  rfl

theorem src_at8 : W8 m ρ c (Proc.devRef .tc main_v5) = Cert.Gcn.src (m ((c.tc : Thread nD τ).loc main_arg1)) := by
  dsimp only [W8, W7, hostOps1, hostOps1_1]
  host_reads
  rw [W6_of_ne m ρ c main_v5 (by decide)]
  exact src_at5 m ρ c

theorem dst_at8 : W8 m ρ c (Proc.devRef .tc main_v6) = Cert.Gcn.dst (m ((c.tc : Thread nD τ).loc main_arg1)) := by
  dsimp only [W8, W7, hostOps1, hostOps1_1]
  host_reads
  rw [W6_of_ne m ρ c main_v6 (by decide)]
  exact dst_at5 m ρ c

theorem norm_at8 : W8 m ρ c (Proc.devRef .tc main_v34) = Cert.Gcn.norm (m ((c.tc : Thread nD τ).loc main_arg1)) (m ((c.tc : Thread nD τ).loc main_arg2)) := by
  dsimp only [W8, W7, hostOps1, hostOps1_1]
  host_reads
  rw [W6_of_ne m ρ c main_v34 (by decide)]
  exact norm_at5 m ρ c

theorem arg5_at8 : W8 m ρ c (Proc.devRef .tc main_arg5) = (m ((c.tc : Thread nD τ).loc main_arg5)) := by
  dsimp only [W8, W7, hostOps1, hostOps1_1]
  host_reads
  rw [W6_of_ne m ρ c main_arg5 (by decide)]
  exact arg5_at5 m ρ c

theorem arg6_at8 : W8 m ρ c (Proc.devRef .tc main_arg6) = (m ((c.tc : Thread nD τ).loc main_arg6)) := by
  dsimp only [W8, W7, hostOps1, hostOps1_1]
  host_reads
  rw [W6_of_ne m ρ c main_arg6 (by decide)]
  exact arg6_at5 m ρ c

/-! ## The second region -/

/-- The second projection: the rectified first layer times the second weight. -/
theorem xw2_eq : W9 m ρ c (Proc.devRef .tc main_v54)
    = Cert.Gcn.proj (Cert.Gcn.relu (Cert.Gcn.layer (m ((c.tc : Thread nD τ).loc main_arg1)) (m ((c.tc : Thread nD τ).loc main_arg2)) (Cert.Gcn.proj (m ((c.tc : Thread nD τ).loc main_arg0)) (m ((c.tc : Thread nD τ).loc main_arg3))) (m ((c.tc : Thread nD τ).loc main_arg4)))) (m ((c.tc : Thread nD τ).loc main_arg5)) := by
  refine (W9_arr m ρ c 2).trans ((Proj.final1 (V8 m ρ) c).trans ?_)
  show Cert.Gcn.proj (W8 m ρ c (Proc.devRef .tc main_v53)) (W8 m ρ c (Proc.devRef .tc main_arg5)) = _
  rw [h1_eq, arg5_at8]

/-! ## After the second region -/

/-- The result buffer at the return: the network of the seven argument arrays. -/
theorem result_eq : W10 m ρ c (Proc.devRef .tc main_v71)
    = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (o7_layer (W9 m ρ c)).trans ?_
  rw [W9_of_ne m ρ c main_v34 (by decide), W9_of_ne m ρ c main_v5 (by decide), W9_of_ne m ρ c main_v6 (by decide),
    W9_of_ne m ρ c main_arg6 (by decide), xw2_eq, norm_at8, src_at8, dst_at8, arg6_at8]
  rfl

end Cert.KernelIdeal.Net

end
-- ==== Proof.RefNet.lean ====
/-
  The reference's composed term is the network.

  The reference applies, in program order, exactly the host operations the network's definition spells: the same
  slices, concatenations, scatter-adds, gathers and selects on the same arguments (it recomputes the edges'
  normalisation for the second layer; the term is the same). So its run's result term unfolds to `Gcn.net` of the
  seven argument arrays.
-/
import proofs.«164229_j53532472377745_2_alg».proof.Proof.Gen.ReferenceIdeal.Run
import proofs.«164229_j53532472377745_2_alg».proof.Proof.Gcn

set_option maxRecDepth 16384

noncomputable section

namespace Cert.ReferenceIdeal.Net

open Cert.ReferenceIdeal Idealize.ShloMosaic Idealize.ShloMosaic.TcCoe Idealize.SL.Sem

set_option maxHeartbeats 4000000 in
/-- The reference's result, as a term of its launch memory, is the network of the seven argument arrays. -/
theorem result_eq (m : (ℓ : Loc nD τ sig) → Buf (Elt Ideal) ℓ) (c : Dev nD) :
    Value.res_main_v95 (F := Ideal) m c
      = Cert.Gcn.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold Value.res_main_v95 Cert.Gcn.net Cert.Gcn.layer Cert.Gcn.layerOf Cert.Gcn.norm Cert.Gcn.normOf Cert.Gcn.dinv Cert.Gcn.pick Cert.Gcn.pos Cert.Gcn.rsq Cert.Gcn.deg Cert.Gcn.wrap Cert.Gcn.relu Cert.Gcn.proj Cert.Gcn.src Cert.Gcn.dst Cert.Gcn.wts Cert.Gcn.one Cert.Gcn.zero
  rfl

end Cert.ReferenceIdeal.Net

end
-- ==== Proof.lean ====
/-
  A two-layer graph convolution with symmetric normalisation, edge weights and self-loops: the kernel against its
  plain-jnp reference, over the extended reals.

  Both programs build the same edge lists and the same normalisation `dinv[src] · w · dinv[dst]` with the same host
  operations, and each layer gathers projected rows, weights them, sums them into their destinations and adds a bias
  (a ReLU between the layers). They differ in three places, none of which changes a value over the extended reals:
  the kernel computes each feature projection `x · W` in a pipelined region, ten row blocks of 10000 rows, where the
  reference applies one `dot_general` (the blocks are restrictions of the same whole-array sum over the contracted
  axis); the kernel stores the projected rows in a narrower float format and widens them after the gather (a change
  of format is the identity); and the kernel computes the edges' normalisation once where the reference recomputes
  it per layer (the same term). So both results are ONE function of the seven argument arrays, `Gcn.net`
  (Proof/Gcn.lean): the kernel's by reading its buffers boundary by boundary (Proof/KernelNet.lean, over the regions'
  arrays of Proof/ProjRegion.lean and the block product of Proof/BlockDot.lean), the reference's by unfolding its
  run's term (Proof/RefNet.lean). No law of the extended reals beyond the matrix product's own sum is used, so the
  finiteness precondition is never opened. The idealization rewrote no operation: `preserves` is trivial.
-/
import proofs.«164229_j53532472377745_2_alg».proof.Defs
import proofs.«164229_j53532472377745_2_alg».proof.Proof.Gen.Kernel
import proofs.«164229_j53532472377745_2_alg».proof.Proof.Gen.Kernel.Skeleton
import proofs.«164229_j53532472377745_2_alg».proof.Proof.Gen.Kernel.Launch
import proofs.«164229_j53532472377745_2_alg».proof.Proof.Gen.Kernel.Points
import proofs.«164229_j53532472377745_2_alg».proof.Proof.Gen.Kernel.Frame
import proofs.«164229_j53532472377745_2_alg».proof.Proof.Gen.KernelIdeal
import proofs.«164229_j53532472377745_2_alg».proof.Proof.Gen.KernelIdeal.Skeleton
import proofs.«164229_j53532472377745_2_alg».proof.Proof.Gen.KernelIdeal.Launch
import proofs.«164229_j53532472377745_2_alg».proof.Proof.Gen.KernelIdeal.Points
import proofs.«164229_j53532472377745_2_alg».proof.Proof.Gen.KernelIdeal.Frame
import proofs.«164229_j53532472377745_2_alg».proof.Proof.Gen.ReferenceIdeal
import proofs.«164229_j53532472377745_2_alg».proof.Proof.Gen.ReferenceIdeal.Run
import proofs.«164229_j53532472377745_2_alg».proof.Proof.Gen.ReferenceIdeal.Read
import proofs.«164229_j53532472377745_2_alg».proof.Proof.Gen.Pre_finite_inputs
import proofs.«164229_j53532472377745_2_alg».proof.Proof.Gcn
import proofs.«164229_j53532472377745_2_alg».proof.Proof.KernelRun
import proofs.«164229_j53532472377745_2_alg».proof.Proof.KernelNet
import proofs.«164229_j53532472377745_2_alg».proof.Proof.RefNet
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network of the argument arrays in their result buffer. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Net.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    rw [Cert.ReferenceIdeal.Net.result_eq m' c, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
